-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8 : Shape := ⟨2, ![16384, 8]⟩
abbrev S1024x8 : Shape := ⟨2, ![1024, 8]⟩
abbrev S1024x1024 : Shape := ⟨2, ![1024, 1024]⟩
abbrev S_ : Shape := ⟨0, ![]⟩

class Facts : Prop where
  bcast_S_S16384x8 : S_.BroadcastsInDim S16384x8 (![] : Fin 0 → Fin S16384x8.rank)
  reducesTo_S16384x8_S_d0_1 : S16384x8.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x8 .f32) (main_arg1 : FVec F S1024x8 .f32) (main_arg2 : FVec F S1024x1024 .f32) : IVec S_ 1 :=
  let main_v0 : FVec F S16384x8 .f32 := Host.absf main_arg0
  let main_cst : FVec F S_ .f32 := constant S_ .f32 0x7F800000#32
  let main_v1 : FVec F S16384x8 .f32 := broadcastInDim S16384x8 ![] bcast_S_S16384x8 main_cst
  let main_v2 : IVec S16384x8 1 := cmpf .olt main_v0 main_v1
  let main_c : IVec S_ 1 := constantI S_ 1 1#1
  let main_v3 : IVec S_ 1 := (fun x v => Host.reduce IntOp.andi x v reducesTo_S16384x8_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S16384x8 : Shape := ⟨2, ![16384, 8]⟩
abbrev S1024x8 : Shape := ⟨2, ![1024, 8]⟩
abbrev S1024x1024 : Shape := ⟨2, ![1024, 1024]⟩
abbrev S_ : Shape := ⟨0, ![]⟩
abbrev S8 : Shape := ⟨1, ![8]⟩
abbrev S1x8 : Shape := ⟨2, ![1, 8]⟩
abbrev S8x1024 : Shape := ⟨2, ![8, 1024]⟩
abbrev S16384x1024 : Shape := ⟨2, ![16384, 1024]⟩
abbrev S1024x1 : Shape := ⟨2, ![1024, 1]⟩
abbrev S1x256 : Shape := ⟨2, ![1, 256]⟩
abbrev S1024x256 : Shape := ⟨2, ![1024, 256]⟩
abbrev S256x1024 : Shape := ⟨2, ![256, 1024]⟩

abbrev nBuf : Space → Nat
  | .hbm => 17
  | .vmem => 6
  | .smem => 0
  | _ => 0

abbrev bufTy : (tb : Table) → Fin (tcTables nBuf tb) → BufTy
  | .hbm, ⟨0, _⟩ => ⟨S16384x8, .f32⟩
  | .hbm, ⟨1, _⟩ => ⟨S1024x8, .f32⟩
  | .hbm, ⟨2, _⟩ => ⟨S1024x1024, .f32⟩
  | .hbm, ⟨3, _⟩ => ⟨S_, .f32⟩
  | .hbm, ⟨4, _⟩ => ⟨S8, .f32⟩
  | .hbm, ⟨5, _⟩ => ⟨S1x8, .f32⟩
  | .hbm, ⟨6, _⟩ => ⟨S_, .f32⟩
  | .hbm, ⟨7, _⟩ => ⟨S8, .f32⟩
  | .hbm, ⟨8, _⟩ => ⟨S1x8, .f32⟩
  | .hbm, ⟨9, _⟩ => ⟨S16384x8, .f32⟩
  | .hbm, ⟨10, _⟩ => ⟨S16384x8, .f32⟩
  | .hbm, ⟨11, _⟩ => ⟨S1x8, .f32⟩
  | .hbm, ⟨12, _⟩ => ⟨S16384x8, .f32⟩
  | .hbm, ⟨13, _⟩ => ⟨S16384x8, .f32⟩
  | .hbm, ⟨14, _⟩ => ⟨S8x1024, .f32⟩
  | .hbm, ⟨15, _⟩ => ⟨S1024x1024, .bf16⟩
  | .hbm, ⟨16, _⟩ => ⟨S16384x1024, .f32⟩
  | .local _ .vmem, ⟨0, _⟩ => ⟨S1024x8, .f32⟩
  | .local _ .vmem, ⟨1, _⟩ => ⟨S1024x8, .f32⟩
  | .local _ .vmem, ⟨2, _⟩ => ⟨S8x1024, .f32⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S16384x8_S8_d0 : S16384x8.ReducesTo [0] S8
  h_S_ : 0 < S_.numel
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  transposes_S1024x8_S8x1024_1_0 : S1024x8.Transposes [1, 0] S8x1024
  bitsLt_bf16_f32 : FTy.bits .bf16 < FTy.bits .f32
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  slices_S1024x8_o0_0_S1024x1 : S1024x8.Slices ![0, 0] S1024x1
  slices_S8x1024_o0_0_S1x256 : S8x1024.Slices ![0, 0] S1x256
  broadcasts_S1024x1_S1024x256 : S1024x1.Broadcasts S1024x256
  broadcasts_S1x256_S1024x256 : S1x256.Broadcasts S1024x256
  slices_S1024x8_o0_1_S1024x1 : S1024x8.Slices ![0, 1] S1024x1
  slices_S8x1024_o1_0_S1x256 : S8x1024.Slices ![1, 0] S1x256
  slices_S1024x8_o0_2_S1024x1 : S1024x8.Slices ![0, 2] S1024x1
  slices_S8x1024_o2_0_S1x256 : S8x1024.Slices ![2, 0] S1x256
  slices_S1024x8_o0_3_S1024x1 : S1024x8.Slices ![0, 3] S1024x1
  slices_S8x1024_o3_0_S1x256 : S8x1024.Slices ![3, 0] S1x256
  slices_S1024x8_o0_4_S1024x1 : S1024x8.Slices ![0, 4] S1024x1
  slices_S8x1024_o4_0_S1x256 : S8x1024.Slices ![4, 0] S1x256
  slices_S1024x8_o0_5_S1024x1 : S1024x8.Slices ![0, 5] S1024x1
  slices_S8x1024_o5_0_S1x256 : S8x1024.Slices ![5, 0] S1x256
  slices_S1024x8_o0_6_S1024x1 : S1024x8.Slices ![0, 6] S1024x1
  slices_S8x1024_o6_0_S1x256 : S8x1024.Slices ![6, 0] S1x256
  slices_S1024x8_o0_7_S1024x1 : S1024x8.Slices ![0, 7] S1024x1
  slices_S8x1024_o7_0_S1x256 : S8x1024.Slices ![7, 0] S1x256
  inb_S1024x1024_S256x1024_0_0 : ∀ a, (![0, 0] : Fin 2 → Nat) a + S256x1024.size a ≤ S1024x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  slices_S8x1024_o0_256_S1x256 : S8x1024.Slices ![0, 256] S1x256
  slices_S8x1024_o1_256_S1x256 : S8x1024.Slices ![1, 256] S1x256
  slices_S8x1024_o2_256_S1x256 : S8x1024.Slices ![2, 256] S1x256
  slices_S8x1024_o3_256_S1x256 : S8x1024.Slices ![3, 256] S1x256
  slices_S8x1024_o4_256_S1x256 : S8x1024.Slices ![4, 256] S1x256
  slices_S8x1024_o5_256_S1x256 : S8x1024.Slices ![5, 256] S1x256
  slices_S8x1024_o6_256_S1x256 : S8x1024.Slices ![6, 256] S1x256
  slices_S8x1024_o7_256_S1x256 : S8x1024.Slices ![7, 256] S1x256
  inb_S1024x1024_S256x1024_256_0 : ∀ a, (![256, 0] : Fin 2 → Nat) a + S256x1024.size a ≤ S1024x1024.size a
  shapeCasts_S1024x1024_S1024x1024 : S1024x1024.ShapeCasts S1024x1024
  slices_S8x1024_o0_512_S1x256 : S8x1024.Slices ![0, 512] S1x256
  slices_S8x1024_o1_512_S1x256 : S8x1024.Slices ![1, 512] S1x256
  slices_S8x1024_o2_512_S1x256 : S8x1024.Slices ![2, 512] S1x256
  slices_S8x1024_o3_512_S1x256 : S8x1024.Slices ![3, 512] S1x256
  slices_S8x1024_o4_512_S1x256 : S8x1024.Slices ![4, 512] S1x256
  slices_S8x1024_o5_512_S1x256 : S8x1024.Slices ![5, 512] S1x256
  slices_S8x1024_o6_512_S1x256 : S8x1024.Slices ![6, 512] S1x256
  slices_S8x1024_o7_512_S1x256 : S8x1024.Slices ![7, 512] S1x256
  inb_S1024x1024_S256x1024_512_0 : ∀ a, (![512, 0] : Fin 2 → Nat) a + S256x1024.size a ≤ S1024x1024.size a
  slices_S8x1024_o0_768_S1x256 : S8x1024.Slices ![0, 768] S1x256
  slices_S8x1024_o1_768_S1x256 : S8x1024.Slices ![1, 768] S1x256
  slices_S8x1024_o2_768_S1x256 : S8x1024.Slices ![2, 768] S1x256
  slices_S8x1024_o3_768_S1x256 : S8x1024.Slices ![3, 768] S1x256
  slices_S8x1024_o4_768_S1x256 : S8x1024.Slices ![4, 768] S1x256
  slices_S8x1024_o5_768_S1x256 : S8x1024.Slices ![5, 768] S1x256
  slices_S8x1024_o6_768_S1x256 : S8x1024.Slices ![6, 768] S1x256
  slices_S8x1024_o7_768_S1x256 : S8x1024.Slices ![7, 768] S1x256
  inb_S1024x1024_S256x1024_768_0 : ∀ a, (![768, 0] : Fin 2 → Nat) a + S256x1024.size a ≤ S1024x1024.size a
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S16384x8.size a
  hwx0_0 : ∀ i : grid0.Coords, EltTy.bits .f32 = 32 ∨ (Rect.block (s := S16384x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8x1024.size a
  hwx0_1 : ∀ i : grid0.Coords, EltTy.bits .f32 = 32 ∨ (Rect.block (s := S8x1024) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v8) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x8 : Shape := ⟨2, ![16384, 8]⟩
abbrev S1024x8 : Shape := ⟨2, ![1024, 8]⟩
abbrev S1024x1024 : Shape := ⟨2, ![1024, 1024]⟩
abbrev S_ : Shape := ⟨0, ![]⟩
abbrev S8 : Shape := ⟨1, ![8]⟩
abbrev S1x8 : Shape := ⟨2, ![1, 8]⟩
abbrev S16384x1x8 : Shape := ⟨3, ![16384, 1, 8]⟩
abbrev S1x1024x8 : Shape := ⟨3, ![1, 1024, 8]⟩
abbrev S16384x1024x8 : Shape := ⟨3, ![16384, 1024, 8]⟩
abbrev S16384x1024 : Shape := ⟨2, ![16384, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x8, .f32⟩
  | .hbm, ⟨1, _⟩ => ⟨S1024x8, .f32⟩
  | .hbm, ⟨2, _⟩ => ⟨S1024x1024, .f32⟩
  | .hbm, ⟨3, _⟩ => ⟨S_, .f32⟩
  | .hbm, ⟨4, _⟩ => ⟨S8, .f32⟩
  | .hbm, ⟨5, _⟩ => ⟨S1x8, .f32⟩
  | .hbm, ⟨6, _⟩ => ⟨S_, .f32⟩
  | .hbm, ⟨7, _⟩ => ⟨S8, .f32⟩
  | .hbm, ⟨8, _⟩ => ⟨S1x8, .f32⟩
  | .hbm, ⟨9, _⟩ => ⟨S16384x8, .f32⟩
  | .hbm, ⟨10, _⟩ => ⟨S16384x8, .f32⟩
  | .hbm, ⟨11, _⟩ => ⟨S1x8, .f32⟩
  | .hbm, ⟨12, _⟩ => ⟨S16384x8, .f32⟩
  | .hbm, ⟨13, _⟩ => ⟨S16384x8, .f32⟩
  | .hbm, ⟨14, _⟩ => ⟨S16384x1x8, .f32⟩
  | .hbm, ⟨15, _⟩ => ⟨S1x1024x8, .f32⟩
  | .hbm, ⟨16, _⟩ => ⟨S16384x1024x8, .f32⟩
  | .hbm, ⟨17, _⟩ => ⟨S16384x1024x8, .f32⟩
  | .hbm, ⟨18, _⟩ => ⟨S16384x1024x8, .f32⟩
  | .hbm, ⟨19, _⟩ => ⟨S16384x1024x8, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | _, _ => ⟨S16384x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  reducesTo_S16384x8_S8_d0 : S16384x8.ReducesTo [0] S8
  h_S_ : 0 < S_.numel
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S16384x8_S16384x1x8_0_2 : S16384x8.BroadcastsInDim S16384x1x8 (![0, 2] : Fin 2 → Fin S16384x1x8.rank)
  bcast_S1024x8_S1x1024x8_1_2 : S1024x8.BroadcastsInDim S1x1024x8 (![1, 2] : Fin 2 → Fin S1x1024x8.rank)
  bcast_S16384x1x8_S16384x1024x8_0_1_2 : S16384x1x8.BroadcastsInDim S16384x1024x8 (![0, 1, 2] : Fin 3 → Fin S16384x1024x8.rank)
  bcast_S1x1024x8_S16384x1024x8_0_1_2 : S1x1024x8.BroadcastsInDim S16384x1024x8 (![0, 1, 2] : Fin 3 → Fin S16384x1024x8.rank)
  reducesTo_S16384x1024x8_S16384x1024_d2 : S16384x1024x8.ReducesTo [2] S16384x1024
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Terms.lean ====
/-
  The body's arithmetic in one vocabulary.

  At a grid point the body holds a block `x` of 1024 scaled points (1024 × 8) and the transposed design points `z`
  (8 × 1024), both first narrowed to bf16. For the run of 256 design points that starts at column `off` it forms, feature
  by feature, `|x (p, d) − z (d, off + k)|` (a column of `x` laid along the 256 columns, minus a row of `z` laid along the
  1024 rows), adds the eight from the left, takes `exp (0 − ·)`, and multiplies the 1024 × 256 result by the 256 rows of the
  matrix from row `off` on: one partial product. The first partial product is stored; each later one is added to what
  the output block held. Here each of these values is ONE term, for any float instance, and each stored value of the
  printed body is one of them (by unfolding alone).
-/
import proofs.«164886_j2680059593368_2_alg».proof.Proof.Gen.KernelIdeal.Skeleton

noncomputable section

namespace Cert.KernelIdeal.Terms

open Cert.KernelIdeal Cert.KernelIdeal.Gen Idealize.ShloMosaic

variable {F : FTy → Type} [FloatOps F]

/-- Column `d` of the block of points is a 1024 × 1 slice of it. -/
theorem sliceX (d : ℕ) (hd : d < 8) : S1024x8.Slices ![0, d] S1024x1 :=
  ⟨rfl, fun a => by
    match a with
    | ⟨0, _⟩ => exact Nat.le_refl _
    | ⟨1, _⟩ => exact hd⟩

/-- Row `d`, columns `off … off + 255`, of the transposed design points is a 1 × 256 slice of them. -/
theorem sliceZ (d off : ℕ) (hd : d < 8) (ho : off + 256 ≤ 1024) : S8x1024.Slices ![d, off] S1x256 :=
  ⟨rfl, fun a => by
    match a with
    | ⟨0, _⟩ => exact hd
    | ⟨1, _⟩ => exact ho⟩

/-- Feature `d`'s distance term over the run of design points from `off`: `|x (·, d) − z (d, off + ·)|`, widened. -/
def term (x : FVec F S1024x8 .bf16) (z : FVec F S8x1024 .bf16) (d off : ℕ) (hd : d < 8) (ho : off + 256 ≤ 1024) :
    FVec F S1024x256 .f32 :=
  extf .f32 (absf (subf
    (broadcastTo S1024x256 (extractStridedSlice S1024x1 ![0, d] x (sliceX d hd)) broadcasts_S1024x1_S1024x256)
    (broadcastTo S1024x256 (extractStridedSlice S1x256 ![d, off] z (sliceZ d off hd ho)) broadcasts_S1x256_S1024x256)))
    bitsLt_bf16_f32

/-- The eight features' terms added from the left: the L1 distances to the run's design points. -/
def dist (x : FVec F S1024x8 .bf16) (z : FVec F S8x1024 .bf16) (off : ℕ) (ho : off + 256 ≤ 1024) : FVec F S1024x256 .f32 :=
  addf (addf (addf (addf (addf (addf (addf
    (term x z 0 off (by decide) ho) (term x z 1 off (by decide) ho)) (term x z 2 off (by decide) ho))
    (term x z 3 off (by decide) ho)) (term x z 4 off (by decide) ho)) (term x z 5 off (by decide) ho))
    (term x z 6 off (by decide) ho)) (term x z 7 off (by decide) ho)

/-- The run's features `exp (0 − distance)`, narrowed. -/
def feat (x : FVec F S1024x8 .bf16) (z : FVec F S8x1024 .bf16) (off : ℕ) (ho : off + 256 ≤ 1024) : FVec F S1024x256 .bf16 :=
  truncf .bf16 (exp (subf (broadcast S1024x256 (Scalar.ofBits .f32 0x00000000#32)) (dist x z off ho))) bitsLt_bf16_f32

/-- The run's partial product: its features times the run's 256 rows `w` of the matrix. -/
def part (x : FVec F S1024x8 .bf16) (z : FVec F S8x1024 .bf16) (off : ℕ) (ho : off + 256 ≤ 1024)
    (w : Vec F S256x1024 .bf16) : FVec F S1024x1024 .f32 :=
  matmul dot_S1024x256_S256x1024_S1024x1024_1_0_0_1_n_n none (feat x z off ho)
    (shapeCast S256x1024 w shapeCasts_S256x1024_S256x1024) (constant S1024x1024 .f32 0x00000000#32)

/-- A partial product added to what the output block held. -/
def accum (held : Vec F S1024x1024 .f32) (p : FVec F S1024x1024 .f32) : FVec F S1024x1024 .f32 :=
  addf (shapeCast S1024x1024 held shapeCasts_S1024x1024_S1024x1024) p

/-! ## The printed body's stored values are these terms -/

/-- The first store: the partial product of the run from column 0. -/
theorem store0 (v0 : Vec F S1024x8 .f32) (v3 : Vec F S8x1024 .f32) (w : Vec F S256x1024 .bf16) :
    k0_pay7 (k0_pay2 v0) (k0_pay3 v3) (k0_pay4 v0 v3) (k0_pay5 v0) (k0_pay6 v3) w
      = part (k0_pay2 v0) (k0_pay3 v3) 0 (by decide) w := rfl

/-- The second store: the run from column 256 added to what the block held. -/
theorem store1 (x : FVec F S1024x8 .bf16) (z : FVec F S8x1024 .bf16) (w : Vec F S256x1024 .bf16) (held : Vec F S1024x1024 .f32) :
    k0_pay9 x z (k0_pay8 x z) w held = accum held (part x z 256 (by decide) w) := rfl

/-- The third store: the run from column 512 added to what the block held. -/
theorem store2 (x : FVec F S1024x8 .bf16) (z : FVec F S8x1024 .bf16) (w : Vec F S256x1024 .bf16) (held : Vec F S1024x1024 .f32) :
    k0_pay13 (k0_pay12 x z (k0_pay10 x z) (k0_pay11 x)) w held = accum held (part x z 512 (by decide) w) := rfl

/-- The fourth store: the run from column 768 added to what the block held. -/
theorem store3 (x : FVec F S1024x8 .bf16) (z : FVec F S8x1024 .bf16) (w : Vec F S256x1024 .bf16) (held : Vec F S1024x1024 .f32) :
    k0_pay1 x z (k0_pay14 x z) (k0_pay15 x z) w held = accum held (part x z 768 (by decide) w) := rfl

end Cert.KernelIdeal.Terms

end
-- ==== Proof.LibWholeStore.lean ====
/-
  Stores that end with a store of the whole buffer.

  A buffer's contents after a list of stores are those of the newest store wherever it reaches. When the newest store
  covers the whole buffer — its rectangle starts at the origin and has the buffer's sizes — the earlier stores and the
  prior contents are gone: the buffer read back is that store's payload, and a load of any rectangle reads the payload at
  the rectangle's entries.
-/
import Idealize.ShloMosaic.Lib.Pipeline.FrameBody
import Idealize.ShloMosaic.Lib.Pipeline.Value

namespace Cert.WholeStore

open Idealize.ShloMosaic

variable {Val : EltTy → Type} [∀ e, Nonempty (Val e)] {sig : RefSig} {κ : Kind} {sp : Space} {S : Shape} {e : EltTy}

/-- A buffer read back after a list of stores whose NEWEST one stores the whole buffer holds that store's payload. -/
theorem read_writes_whole_last (v : View sig κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- A load of any rectangle after such a list of stores reads the newest payload at the rectangle. -/
theorem readCov_whole_last (v : View sig κ sp S e)
    {off : Fin S.rank → Nat} (h : off = fun _ => 0) (inb : ∀ a, off a + S.size a ≤ S.size a) (w : S.Idx → Val e)
    (L : List (View.Piece Val S e)) (r : Rect S) :
    v.readCov ((⟨Rect.unit off S.size inb, w⟩ : View.Piece Val S e) :: L) r.toLoadRect = View.ld w r := by
  subst h
  rw [View.readCov_eq_canon_ld _ _ _ (fun y => ⟨_, List.mem_cons_self, by
    show y ∈ (Rect.whole S).set; rw [Rect.set_whole]; exact Finset.mem_univ y⟩), View.canon_cons_unit_zero rfl]

end Cert.WholeStore
-- ==== Proof.BodyRun.lean ====
/-
  What one grid point leaves in the output block.

  The body stores the whole 1024 × 1024 output block four times: the first partial product, then three times what the
  block held plus the next partial product. Each later store reads back what the store before it left, so the block ends
  at  ((P₀ + P₁) + P₂) + P₃  with `P_c` the partial product of the run of 256 design points from column `256·c`, taken
  with rows `256·c … 256·c + 255` of the matrix. This holds at every float instance: only the order of stores and loads
  is used.
-/
import proofs.«164886_j2680059593368_2_alg».proof.Proof.Gen.KernelIdeal.Frame
import proofs.«164886_j2680059593368_2_alg».proof.Proof.Terms
import proofs.«164886_j2680059593368_2_alg».proof.Proof.LibWholeStore

set_option maxRecDepth 16384

noncomputable section

namespace Cert.KernelIdeal.BodyRun

open Cert.KernelIdeal Cert.KernelIdeal.Gen Cert.KernelIdeal.Terms Idealize.ShloMosaic Idealize.ShloMosaic.TcCoe
  Idealize.ShloMosaic.Tactic Idealize.SL.Sem

variable {F : FTy → Type} [FloatOps F]

/-- Rows `off … off + 255` of the matrix, as the body loads them. -/
def rows (w : Vec F S1024x1024 .bf16) (off : ℕ)
    (h : ∀ a, (![off, 0] : Fin 2 → ℕ) a + S256x1024.size a ≤ S1024x1024.size a) : Vec F S256x1024 .bf16 :=
  View.ld w (Rect.unit ![off, 0] S256x1024.size h)

/-- The output block after the body, from the block of points `x0`, the transposed design points `x1` and the matrix
    `x2`: the four partial products added from the left. -/
def blockValue (x0 : Vec F S1024x8 .f32) (x1 : Vec F S8x1024 .f32) (x2 : Vec F S1024x1024 .bf16) : FVec F S1024x1024 .f32 :=
  accum (accum (accum
    (part (k0_pay2 x0) (k0_pay3 x1) 0 (by decide) (rows x2 0 inb_S1024x1024_S256x1024_0_0))
    (part (k0_pay2 x0) (k0_pay3 x1) 256 (by decide) (rows x2 256 inb_S1024x1024_S256x1024_256_0)))
    (part (k0_pay2 x0) (k0_pay3 x1) 512 (by decide) (rows x2 512 inb_S1024x1024_S256x1024_512_0)))
    (part (k0_pay2 x0) (k0_pay3 x1) 768 (by decide) (rows x2 768 inb_S1024x1024_S256x1024_768_0))

theorem zeros2 : (![0, 0] : Fin 2 → ℕ) = fun _ => 0 := by
  funext a
  match a with
  | ⟨0, _⟩ => rfl
  | ⟨1, _⟩ => rfl

/-- The run's contents of the output block are `blockValue` of the three input blocks. -/
theorem out_eq (c : Dev nD) (i : grid0.Coords) (arg1 : Memref sig .tc .vmem S1024x8 .f32) (harg1 : arg1.IsWhole)
    (arg2 : Memref sig .tc .vmem S8x1024 .f32) (harg2 : arg2.IsWhole)
    (arg3 : Memref sig .tc .vmem S1024x1024 .bf16) (harg3 : arg3.IsWhole)
    (arg4 : Memref sig .tc .vmem S1024x1024 .f32) (harg4 : arg4.IsWhole)
    (x0 : Vec F S1024x8 .f32) (x1 : Vec F S8x1024 .f32) (x2 : Vec F S1024x1024 .bf16) :
    out0_A_3 c i arg1 harg1 arg2 harg2 arg3 harg3 arg4 harg4 x0 x1 x2 = blockValue x0 x1 x2 := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_cons_unit_zero zeros2]
  simp only [Cert.WholeStore.readCov_whole_last (S := S1024x1024) _ zeros2, View.readAt_eq_ld, harg1.read_unread, harg2.read_unread,
    harg3.read_unread, View.ld_unit_zero (S := S1024x8) zeros2, View.ld_unit_zero (S := S8x1024) zeros2,
    View.ld_unit_zero (S := S1024x1024) zeros2]
  rw [store3, store2, store1, store0]
  rfl

end Cert.KernelIdeal.BodyRun

end
-- ==== Proof.LibChunkSum.lean ====
/-
  A finite sum taken chunk by chunk.

  The first `n * B` numbers are `n` consecutive chunks of `B` consecutive numbers, position `j` of chunk `c` being
  the number `c * B + j`; in a commutative monoid a sum over all of them is the sum over the chunks of each chunk's
  sum.  And a sum over nine terms is the nine added one after the other onto zero, from the left — the shape an
  accumulator that starts at zero and takes nine partial sums in turn ends with.
-/
import Mathlib.Algebra.BigOperators.Fin
import Mathlib.Logic.Equiv.Fin.Basic

namespace Cert.ChunkSum

variable {M : Type*} [AddCommMonoid M]

/-- The sum over `Fin (n * B)` is the sum over the `n` chunks of the sum over each chunk's `B` positions. -/
theorem sum_fin_chunks (n B : ℕ) (G : Fin (n * B) → M) :
    ∑ k : Fin (n * B), G k
      = ∑ c : Fin n, ∑ j : Fin B, G ⟨c.val * B + j.val, by
          have hc := c.isLt; have hj := j.isLt
          have h1 : c.val * B + j.val < (c.val + 1) * B := by rw [Nat.succ_mul]; omega
          exact lt_of_lt_of_le h1 (Nat.mul_le_mul_right B hc)⟩ := by
  rw [← Equiv.sum_comp finProdFinEquiv G, Fintype.sum_prod_type]
  refine Finset.sum_congr rfl fun c _ => Finset.sum_congr rfl fun j _ => congrArg G (Fin.ext ?_)
  show j.val + B * c.val = c.val * B + j.val
  rw [Nat.mul_comm, Nat.add_comm]

/-- Nine terms added one after the other onto zero, from the left, are their sum. -/
theorem sum_fin_nine (s : Fin 9 → M) :
    ∑ c : Fin 9, s c = ((((((((0 + s 0) + s 1) + s 2) + s 3) + s 4) + s 5) + s 6) + s 7) + s 8 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_zero]
  rfl

end Cert.ChunkSum
-- ==== Proof.Spec.lean ====
/-
  The Laplace-kernel features contracted with a matrix, as one function of three arrays, and the two ways of adding it
  up.

  For scaled points `xs` (16384 × 8), design points `dp` (1024 × 8) and a matrix `ch` (1024 × 1024), entry (n, j) is
      ∑ m, exp (−∑ d, |xs (n, d) − dp (m, d)|) · ch (m, j)
  over the 1024 design points `m` and the 8 features `d`, on the extended reals, with `|a| = max a (−a)`.
  A sum over the 1024 design points taken as four runs of 256, the four partial sums added from the left, is the same
  sum, and an eight-term sum added from the left is the sum over the eight features: addition of extended reals is
  commutative and associative, so nothing here asks the entries to be finite.
-/
import Idealize.ShloMosaic.PureOps.Ideal
import Idealize.ShloMosaic.Lib.ValueIdx
import proofs.«164886_j2680059593368_2_alg».proof.Proof.LibChunkSum

noncomputable section

namespace Cert.LaplaceSpec

open Idealize.ShloMosaic Idealize.ShloMosaic.ValueIdx

/-- The L1 distance term of feature `d`: `|a − b|` as the larger of the difference and its negation. -/
def absDiff (a b : EReal) : EReal := max (a - b) (-(a - b))

/-- The L1 distance between row `n` of the scaled points and design point `m`. -/
def dist (xs : (⟨2, ![16384, 8]⟩ : Shape).Idx → EReal) (dp : (⟨2, ![1024, 8]⟩ : Shape).Idx → EReal)
    (n : Fin 16384) (m : Fin 1024) : EReal :=
  ∑ d : Fin 8, absDiff (xs (ix2 n d)) (dp (ix2 m d))

/-- The whole result: entry (n, j) is the sum over the design points of `exp (−dist) · ch (m, j)`. -/
def laplace (xs : (⟨2, ![16384, 8]⟩ : Shape).Idx → EReal) (dp : (⟨2, ![1024, 8]⟩ : Shape).Idx → EReal)
    (ch : (⟨2, ![1024, 1024]⟩ : Shape).Idx → EReal) : (⟨2, ![16384, 1024]⟩ : Shape).Idx → EReal :=
  fun i => ∑ m : Fin 1024, Ideal.exp (-(dist xs dp (i 0) m)) * ch (ix2 m (i 1))

/-- Eight terms added one after the other from the left are their sum. -/
theorem sum_eight_left (a : Fin 8 → EReal) :
    ((((((a 0 + a 1) + a 2) + a 3) + a 4) + a 5) + a 6) + a 7 = ∑ d : Fin 8, a d := by
  rw [Fin.sum_univ_eight]

/-- Position `k` of run `c` of four runs of 256 among 1024 positions. -/
def inRun (c : Fin 4) (k : Fin 256) : Fin 1024 := ⟨c.val * 256 + k.val, by have := c.isLt; have := k.isLt; omega⟩

/-- A sum over 1024 positions is the four runs' partial sums added from the left. -/
theorem sum_four_runs (f : Fin 1024 → EReal) :
    ((∑ k : Fin 256, f (inRun 0 k) + ∑ k : Fin 256, f (inRun 1 k)) + ∑ k : Fin 256, f (inRun 2 k))
        + ∑ k : Fin 256, f (inRun 3 k) = ∑ m : Fin 1024, f m := by
  have h := Cert.ChunkSum.sum_fin_chunks 4 256 (fun m : Fin (4 * 256) => f m)
  rw [Fin.sum_univ_four] at h
  exact h.symm

end Cert.LaplaceSpec

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibPlainMatmul.lean ====
/-
  A plain matrix product `M × K` by `K × N` (the left operand contracted on its last axis, the right on its first, no
  batch axis) accumulated into the zero splat, read at coordinates at the ideal values: entry (p, q) of the product is
  `∑ k, lhs (p, k) · rhs (k, q)` over the `K` positions of the contracted axis, a sum indexed by `Fin K`. Nothing of
  real arithmetic is used beyond `0 + x = x`, so it holds at the infinities too.
-/
import Idealize.ShloMosaic.Lib.ValueIdx
import Idealize.ShloMosaic.PureOps.Ideal.Laws

namespace Cert.PlainMatmul

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- The left operand is read at (row of the result, contraction position). -/
theorem lhsIdx_plain (M K N : ℕ) (p : Fin M) (q : Fin N) (k : Fin K) :
    (DotDims.plain M K N).lhsIdx (ix2 p q) ((contrFin M K N).symm k) = ix2 p k := by
  funext a
  apply Fin.ext
  match a with
  | ⟨0, _⟩ => rfl
  | ⟨1, _⟩ => exact contrEquiv1_symm_val (DotDims.plain M K N) K rfl rfl k

/-- The right operand is read at (contraction position, column of the result). -/
theorem rhsIdx_plain (M K N : ℕ) (p : Fin M) (q : Fin N) (k : Fin K) :
    (DotDims.plain M K N).rhsIdx (ix2 p q) ((contrFin M K N).symm k) = ix2 k q := by
  funext a
  apply Fin.ext
  match a with
  | ⟨0, _⟩ => exact contrEquiv1_symm_val (DotDims.plain M K N) K rfl rfl k
  | ⟨1, _⟩ => rfl

/-- Entry (p, q) of a plain product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrFin M K N).symm]
  exact Finset.sum_congr rfl fun k _ => by rw [lhsIdx_plain, rhsIdx_plain]

end Cert.PlainMatmul
-- ==== Proof.BodyAt.lean ====
/-
  The output block after one grid point, entry by entry, on the extended reals.

  With `x` the block of points, `z` the transposed design points and `w` the matrix, entry (p, q) of the block is
      ((S₀ + S₁) + S₂) + S₃,   S_c = ∑ k < 256, exp (−∑ d, |x (p, d) − z (d, 256·c + k)|) · w (256·c + k, q):
  a narrowing or widening of the float format is the identity here, a column or a row laid along a matrix reads the
  column's or the row's entry, a matrix product into zero is the sum over the contracted axis, and `0 − a = −a`.
  Four runs of 256 added from the left are the sum over all 1024 design points.
-/
import proofs.«164886_j2680059593368_2_alg».proof.Proof.BodyRun
import proofs.«164886_j2680059593368_2_alg».proof.Proof.Spec
import proofs.«164886_j2680059593368_2_alg».proof.Proof.LibKeepdims
import proofs.«164886_j2680059593368_2_alg».proof.Proof.LibPlainMatmul
import Idealize.ShloMosaic.Lib.ValueLayout
import Idealize.ShloMosaic.PureOps.Ideal.Laws

noncomputable section

namespace Cert.KernelIdeal.BodyAt

open Cert.KernelIdeal Cert.KernelIdeal.Gen Cert.KernelIdeal.Terms Cert.KernelIdeal.BodyRun Cert.LaplaceSpec
  Idealize.ShloMosaic Idealize.ShloMosaic.ValueIdx

/-- One feature's distance term at (p, k): `|x (p, d) − z (d, off + k)|`. -/
theorem term_apply (x : FVec Ideal S1024x8 .bf16) (z : FVec Ideal S8x1024 .bf16) (d off : ℕ) (hd : d < 8)
    (ho : off + 256 ≤ 1024) (p : Fin 1024) (k : Fin 256) :
    term x z d off hd ho (ix2 p k)
      = absDiff (x (ix2 p (⟨d, hd⟩ : Fin 8))) (z (ix2 (⟨d, hd⟩ : Fin 8) (⟨off + k.val, by have := k.isLt; omega⟩ : Fin 1024))) := by
  unfold term
  rw [extf_apply]
  show FloatOps.absf (F := Ideal) (subf _ _ (ix2 p k)) = _
  rw [Ideal.absf_def, subf_apply, Cert.Keepdims.broadcastTo_a1_ab_apply, broadcastTo_1b_ab_apply,
    slice2_axis1_apply d x (sliceX d hd) p (0 : Fin 1) (⟨d, hd⟩ : Fin 8) rfl,
    extractStridedSlice_apply ![d, off] z (sliceZ d off hd ho) (ix2 (0 : Fin 1) k)
      (ix2 (⟨d, hd⟩ : Fin 8) (⟨off + k.val, by have := k.isLt; omega⟩ : Fin 1024)) (fun a => by
        match a with
        | ⟨0, _⟩ => rfl
        | ⟨1, _⟩ => rfl)]
  rfl

/-- The distance to design point `off + k` at row `p`: the sum over the eight features. -/
theorem dist_apply (x : FVec Ideal S1024x8 .bf16) (z : FVec Ideal S8x1024 .bf16) (off : ℕ) (ho : off + 256 ≤ 1024)
    (p : Fin 1024) (k : Fin 256) :
    Terms.dist x z off ho (ix2 p k)
      = ∑ d : Fin 8, absDiff (x (ix2 p d)) (z (ix2 d (⟨off + k.val, by have := k.isLt; omega⟩ : Fin 1024))) := by
  unfold Terms.dist
  simp only [addf_apply, term_apply]
  exact sum_eight_left fun d : Fin 8 =>
    absDiff (x (ix2 p d)) (z (ix2 d (⟨off + k.val, by have := k.isLt; omega⟩ : Fin 1024)))

/-- The feature at (p, k): `exp (−distance)`. -/
theorem feat_apply (x : FVec Ideal S1024x8 .bf16) (z : FVec Ideal S8x1024 .bf16) (off : ℕ) (ho : off + 256 ≤ 1024)
    (p : Fin 1024) (k : Fin 256) :
    feat x z off ho (ix2 p k)
      = Ideal.exp (-(∑ d : Fin 8, absDiff (x (ix2 p d)) (z (ix2 d (⟨off + k.val, by have := k.isLt; omega⟩ : Fin 1024))))) := by
  unfold feat
  rw [truncf_apply]
  show FloatOps.exp (F := Ideal) (subf _ _ (ix2 p k)) = _
  rw [Ideal.exp_def, subf_apply, broadcast_apply, dist_apply]
  show Ideal.exp (Ideal.ofBits .f32 0x00000000#32 - _) = _
  rw [Ideal.ofBits_zero_f32, zero_sub]

/-- Rows `off …` of the matrix read at (k, q): row `off + k`. -/
theorem rows_apply (w : Vec Ideal S1024x1024 .bf16) (off : ℕ)
    (h : ∀ a, (![off, 0] : Fin 2 → ℕ) a + S256x1024.size a ≤ S1024x1024.size a) (ho : off + 256 ≤ 1024)
    (k : Fin 256) (q : Fin 1024) :
    rows w off h (ix2 k q) = w (ix2 (⟨off + k.val, by have := k.isLt; omega⟩ : Fin 1024) q) := by
  unfold rows
  refine congrArg w (funext fun a => Fin.ext ?_)
  match a with
  | ⟨0, _⟩ => show off + 1 * k.val = off + k.val; omega
  | ⟨1, _⟩ => show 0 + 1 * q.val = q.val; omega

/-- A run's partial product at (p, q): the sum over the run's 256 design points. -/
theorem part_apply (x : FVec Ideal S1024x8 .bf16) (z : FVec Ideal S8x1024 .bf16) (off : ℕ) (ho : off + 256 ≤ 1024)
    (w : Vec Ideal S256x1024 .bf16) (p q : Fin 1024) :
    part x z off ho w (ix2 p q) = ∑ k : Fin 256, feat x z off ho (ix2 p k) * w (ix2 k q) := by
  unfold part
  rw [shapeCast_self]
  exact Cert.PlainMatmul.matmul_zero_apply 1024 256 1024 none (feat x z off ho) w p q

/-- Adding to what the block held, at an index. -/
theorem accum_apply (held : Vec Ideal S1024x1024 .f32) (v : FVec Ideal S1024x1024 .f32) (j : S1024x1024.Idx) :
    accum held v j = held j + v j := by
  unfold accum
  rw [addf_apply, shapeCast_self]

/-- The block of points narrowed is the block of points. -/
theorem pay2_apply (x0 : Vec Ideal S1024x8 .f32) (j : S1024x8.Idx) : k0_pay2 x0 j = x0 j := by
  unfold k0_pay2
  rw [truncf_apply, shapeCast_self]

/-- The transposed design points narrowed are themselves. -/
theorem pay3_apply (x1 : Vec Ideal S8x1024 .f32) (j : S8x1024.Idx) : k0_pay3 x1 j = x1 j := by
  unfold k0_pay3
  rw [truncf_apply, shapeCast_self]

/-- The summand of design point `m` at row `p`, column `q`. -/
def summand (x0 : Vec Ideal S1024x8 .f32) (x1 : Vec Ideal S8x1024 .f32) (x2 : Vec Ideal S1024x1024 .bf16)
    (p q : Fin 1024) (m : Fin 1024) : EReal :=
  Ideal.exp (-(∑ d : Fin 8, absDiff (x0 (ix2 p d)) (x1 (ix2 d m)))) * x2 (ix2 m q)

/-- One run's partial product as the run's summands. -/
theorem part_run (x0 : Vec Ideal S1024x8 .f32) (x1 : Vec Ideal S8x1024 .f32) (x2 : Vec Ideal S1024x1024 .bf16)
    (c : Fin 4) (off : ℕ) (hoff : off = c.val * 256) (ho : off + 256 ≤ 1024)
    (h : ∀ a, (![off, 0] : Fin 2 → ℕ) a + S256x1024.size a ≤ S1024x1024.size a) (p q : Fin 1024) :
    part (k0_pay2 x0) (k0_pay3 x1) off ho (rows x2 off h) (ix2 p q)
      = ∑ k : Fin 256, summand x0 x1 x2 p q (inRun c k) := by
  subst hoff
  rw [part_apply]
  refine Finset.sum_congr rfl fun k _ => ?_
  rw [feat_apply, rows_apply x2 _ h ho]
  simp only [pay2_apply, pay3_apply]
  rfl

/-- The block after the body, at (p, q): the sum over all 1024 design points. -/
theorem blockValue_apply (x0 : Vec Ideal S1024x8 .f32) (x1 : Vec Ideal S8x1024 .f32) (x2 : Vec Ideal S1024x1024 .bf16)
    (p q : Fin 1024) :
    blockValue x0 x1 x2 (ix2 p q) = ∑ m : Fin 1024, summand x0 x1 x2 p q m := by
  unfold blockValue
  rw [accum_apply, accum_apply, accum_apply,
    part_run x0 x1 x2 0 0 rfl, part_run x0 x1 x2 1 256 rfl, part_run x0 x1 x2 2 512 rfl, part_run x0 x1 x2 3 768 rfl]
  exact sum_four_runs (summand x0 x1 x2 p q)

/-- The block against the whole result. If row `p` of the block of points is row `r` of the scaled points `XS`, the
    transposed design points are `DP` transposed, and column `q` of the matrix is column `q` of `CH`, then entry (p, q) of
    the block after the body is entry (r, q) of `laplace XS DP CH`. -/
theorem blockValue_entry (XS : (⟨2, ![16384, 8]⟩ : Shape).Idx → EReal) (DP : (⟨2, ![1024, 8]⟩ : Shape).Idx → EReal)
    (CH : (⟨2, ![1024, 1024]⟩ : Shape).Idx → EReal)
    (x0 : Vec Ideal S1024x8 .f32) (x1 : Vec Ideal S8x1024 .f32) (x2 : Vec Ideal S1024x1024 .bf16)
    (r : Fin 16384) (p q : Fin 1024)
    (h0 : ∀ d : Fin 8, x0 (ix2 p d) = XS (ix2 r d))
    (h1 : ∀ (d : Fin 8) (k : Fin 1024), x1 (ix2 d k) = DP (ix2 k d))
    (h2 : ∀ k : Fin 1024, x2 (ix2 k q) = CH (ix2 k q)) :
    blockValue x0 x1 x2 (ix2 p q) = laplace XS DP CH (ix2 r q) := by
  rw [blockValue_apply]
  unfold laplace
  refine Finset.sum_congr rfl fun k _ => ?_
  unfold summand LaplaceSpec.dist
  rw [h2 k]
  simp only [h0, h1]

end Cert.KernelIdeal.BodyAt

end
-- ==== Proof.Block.lean ====
/-
  From the sixteen blocks to the whole result.

  Grid point `t` works on rows `1024·t … 1024·t + 1023` of the scaled points and writes rows `1024·t … 1024·t + 1023`,
  all 1024 columns, of the result; the transposed design points and the matrix are read whole at every point. The host
  wrote the transposed design points as the transpose of the second argument and the narrowed matrix as the third
  argument itself (a narrowing is the identity on the extended reals). So what point `t` writes back is block `t` of
  `laplace xs dp ch`, with `xs` the scaled points as the region finds them, and the sixteen blocks cover the result.
-/
import proofs.«164886_j2680059593368_2_alg».proof.Proof.Gen.KernelIdeal.Value
import proofs.«164886_j2680059593368_2_alg».proof.Proof.BodyAt
import Idealize.ShloMosaic.Lib.StableHlo.Run

set_option maxRecDepth 16384

noncomputable section

namespace Cert.KernelIdeal.Block

open Cert.KernelIdeal Cert.KernelIdeal.Gen Cert.KernelIdeal.BodyRun Cert.KernelIdeal.BodyAt Cert.LaplaceSpec
  Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The transposed design points, as the region finds them: the transpose of the second argument. -/
theorem designT_eq (c : Dev nD) :
    (V m c main_v9 : S8x1024.Idx → EReal)
      = transpose S8x1024 [1, 0] (m ((c : Thread nD τ).loc main_arg1)) transposes_S1024x8_S8x1024_1_0 := by
  dsimp only [Gen.V, Gen.hostOps0]
  after_results

/-- The narrowed matrix, as the region finds it: the third argument. -/
theorem matrix_eq (c : Dev nD) :
    (V m c main_v10 : S1024x1024.Idx → EReal) = m ((c : Thread nD τ).loc main_arg2) := by
  dsimp only [Gen.V, Gen.hostOps0]
  after_results
  rfl

/-- The printed index maps over the grid: the block of points moves with the output block, the other two inputs stay,
    and the output block's row index is below 16. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 15 ∧ win0_3.index t (1 : Fin 2) = 0 :=
  (by decide +kernel : ∀ t : Fin grid0.N, _)

/-- Every one of the sixteen row blocks is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-- The row of the result that row `p` of point `t`'s block is: `1024 · (block index) + p`. -/
def rowOf (t : Fin cfg0.N) (p : Fin 1024) : Fin 16384 :=
  ⟨win0_3.index t (0 : Fin 2) * 1024 + p.val, by
    have h := (idx_facts t).2.2.2.2.2.2.1
    have := p.isLt
    omega⟩

/-- Entry (p, q) of point `t`'s output block is entry (`rowOf t p`, q) of the result. -/
theorem out_emb (t : Fin cfg0.N) (p q : Fin 1024) :
    (((cfg0.win 3).blk t).view.emb (ix2 p q) : S16384x1024.Idx) = ix2 (rowOf t p) q := by
  have e7 := (idx_facts t).2.2.2.2.2.2.2
  funext a; apply Fin.ext
  match a with
  | ⟨0, _⟩ =>
    show win0_3.index t (0 : Fin 2) * 1024 + 1 * p.val = win0_3.index t (0 : Fin 2) * 1024 + p.val
    omega
  | ⟨1, _⟩ =>
    show win0_3.index t (1 : Fin 2) * 1024 + 1 * q.val = q.val
    omega

/-- The block of points at (p, d) is the scaled points' entry at the output block's row. -/
theorem points_apply (c : Dev nD) (t : Fin cfg0.N) (p : Fin 1024) (d : Fin 8) :
    iblk m c 0 t (ix2 p d) = V m c main_v8 (ix2 (rowOf t p) d) := by
  obtain ⟨e0, e1, -⟩ := idx_facts t
  show V m c main_v8 (((cfg0.win 0).blk t).view.emb (ix2 p d)) = _
  refine congrArg (V m c main_v8) (funext fun a => Fin.ext ?_)
  match a with
  | ⟨0, _⟩ =>
    show win0_0.index t (0 : Fin 2) * 1024 + 1 * p.val = win0_3.index t (0 : Fin 2) * 1024 + p.val
    rw [e0, Nat.one_mul]
  | ⟨1, _⟩ =>
    show win0_0.index t (1 : Fin 2) * 8 + 1 * d.val = d.val
    rw [e1, Nat.zero_mul, Nat.zero_add, Nat.one_mul]

/-- The transposed design points' block at (d, k) is design point `k`'s feature `d`. -/
theorem design_apply (c : Dev nD) (t : Fin cfg0.N) (d : Fin 8) (k : Fin 1024) :
    iblk m c 1 t (ix2 d k) = m ((c : Thread nD τ).loc main_arg1) (ix2 k d) := by
  obtain ⟨-, -, e2, e3, -⟩ := idx_facts t
  show V m c main_v9 (((cfg0.win 1).blk t).view.emb (ix2 d k)) = _
  have h : (((cfg0.win 1).blk t).view.emb (ix2 d k) : S8x1024.Idx) = ix2 d k := by
    funext a; apply Fin.ext
    match a with
    | ⟨0, _⟩ => show win0_1.index t (0 : Fin 2) * 8 + 1 * d.val = d.val; omega
    | ⟨1, _⟩ => show win0_1.index t (1 : Fin 2) * 1024 + 1 * k.val = k.val; omega
  rw [h, designT_eq, transpose_ix2_apply]

/-- The matrix's block at (k, q) is the third argument's entry at (k, q). -/
theorem matrix_apply (c : Dev nD) (t : Fin cfg0.N) (k q : Fin 1024) :
    iblk m c 2 t (ix2 k q) = m ((c : Thread nD τ).loc main_arg2) (ix2 k q) := by
  obtain ⟨-, -, -, -, e4, e5, -⟩ := idx_facts t
  show V m c main_v10 (((cfg0.win 2).blk t).view.emb (ix2 k q)) = _
  rw [matrix_eq]
  refine congrArg (m ((c : Thread nD τ).loc main_arg2)) (funext fun a => Fin.ext ?_)
  match a with
  | ⟨0, _⟩ =>
    show win0_2.index t (0 : Fin 2) * 1024 + 1 * k.val = k.val
    rw [e4, Nat.zero_mul, Nat.zero_add, Nat.one_mul]
  | ⟨1, _⟩ =>
    show win0_2.index t (1 : Fin 2) * 1024 + 1 * q.val = q.val
    rw [e5, Nat.zero_mul, Nat.zero_add, Nat.one_mul]

/-- Entry (p, q) of what point `t` leaves in the output block is entry (`rowOf t p`, q) of the whole result. -/
theorem entries (c : Dev nD) (t : Fin cfg0.N) (p q : Fin 1024) :
    blockValue (iblk m c 0 t) (iblk m c 1 t) (iblk m c 2 t) (ix2 p q)
      = laplace (V m c main_v8) (m ((c : Thread nD τ).loc main_arg1)) (m ((c : Thread nD τ).loc main_arg2))
          (ix2 (rowOf t p) q) :=
  blockValue_entry (V m c main_v8) (m ((c : Thread nD τ).loc main_arg1)) (m ((c : Thread nD τ).loc main_arg2))
    (iblk m c 0 t) (iblk m c 1 t) (iblk m c 2 t) (rowOf t p) p q
    (fun d => points_apply m c t p d) (fun d k => design_apply m c t d k) (fun k => matrix_apply m c t k q)

/-- WHAT POINT `t` WRITES BACK is block `t` of any array `G` whose entries the blocks' entries are. -/
theorem flushed_of_entries (G : S16384x1024.Idx → EReal) (c : Dev nD)
    (hG : ∀ (t : Fin cfg0.N) (p q : Fin 1024),
      blockValue (iblk m c 0 t) (iblk m c 1 t) (iblk m c 2 t) (ix2 p q) = G (ix2 (rowOf t p) q))
    (t : Fin cfg0.N) :
    (dats m 0 c).flushed 3 t = ((cfg0.win 3).blk t).view.read (Elt Ideal) G := by
  refine (Cert.KernelIdeal.Value.flushed3_A m c t).trans ?_
  funext j
  obtain ⟨p, q, rfl⟩ : ∃ (p : Fin 1024) (q : Fin 1024), j = ix2 p q := ⟨j 0, j 1, eq_ix2 j⟩
  refine (congrFun (out_eq c (grid0.coords t) (ms0_0 t) (hs0_0 t) (ms0_1 t) (hs0_1 t) (ms0_2 t) (hs0_2 t) (ms0_3 t)
    (hs0_3 t) (iblk m c 0 t) (iblk m c 1 t) (iblk m c 2 t)) (ix2 p q)).trans ?_
  exact (hG t p q).trans (congrArg G (out_emb t p q).symm)

/-- An index of the result is in point `t`'s block iff each coordinate is in the block's range on its axis. -/
theorem mem_blk (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v11).slice (win0_3.rect t)).set ↔ _
  rw [View.set_slice_whole, Rect.mem_set_unit]
  exact Iff.rfl

/-- Every index of the result is in some point's block: row `r` is in block `r / 1024`. -/
theorem cover (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE RESULT ARRAY after the run is `laplace` of the scaled points and the second and third arguments. -/
theorem final (c : Dev nD) :
    (dats m 0 c).arrAt 3 cfg0.N
      = laplace (V m c main_v8) (m ((c : Thread nD τ).loc main_arg1)) (m ((c : Thread nD τ).loc main_arg2)) :=
  (dats m 0 c).arrAt_eq_of_cover 3 _ (fun t _ => flushed_of_entries m _ c (entries m c) t) cover

/-- The kernel's run: the result at `laplace`, the arguments unchanged. -/
theorem run : θ_run defs (onTc (τ := τ) (main (F := Ideal))) ⟨m, fun _ => 0, ρ⟩ fun r => ∀ c : Dev nD,
      r.2.mem ((c : Thread nD τ).loc main_v11)
        = laplace (V m c main_v8) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Block

end
-- ==== Proof.RefValue.lean ====
/-
  The reference computes the same function.

  The reference scales the points, lays point `n` and design point `m` side by side along a third axis of the eight
  features, takes `|xs (n, d) − dp (m, d)|`, sums the features from zero, negates, exponentiates and multiplies the
  16384 × 1024 result by the matrix. Read entry by entry — a broadcast reads its operand at the coordinates it keeps, the
  host's negation, absolute value and exponential are the extended reals' — its result is `laplace` of the scaled points
  and the second and third arguments.
-/
import proofs.«164886_j2680059593368_2_alg».proof.Proof.Gen.ReferenceIdeal.Read
import proofs.«164886_j2680059593368_2_alg».proof.Proof.Spec
import Idealize.ShloMosaic.PureOps.Ideal.Laws

noncomputable section

namespace Cert.ReferenceIdeal.RefValue

open Cert.ReferenceIdeal Cert.ReferenceIdeal.Gen Cert.ReferenceIdeal.Read Cert.LaplaceSpec
  Idealize.ShloMosaic Idealize.ShloMosaic.ValueIdx

/-- The reference's result, as a function of its arguments, is `laplace` of the scaled points and the other two. -/
theorem result_eq (x0 : (⟨S16384x8, .f32⟩ : BufTy).Contents (Elt Ideal)) (x1 : (⟨S1024x8, .f32⟩ : BufTy).Contents (Elt Ideal))
    (x2 : (⟨S1024x1024, .f32⟩ : BufTy).Contents (Elt Ideal)) :
    val_main_v18 (F := Ideal) x0 x1 x2 = laplace (val_main_v8 (F := Ideal) x0) x1 x2 := by
  funext i
  rw [val_main_v18_apply]
  unfold laplace
  refine Finset.sum_congr rfl fun k _ => ?_
  have er : ridx_main_v18 i k = ix2 k (i 1) :=
    funext fun a => Fin.ext (by match a with | ⟨0, _⟩ => rfl | ⟨1, _⟩ => rfl)
  rw [er, val_main_v17_apply, val_main_v16_apply, val_main_v15_apply, val_main_cst_1_apply]
  simp only [Ideal.hostUnary_exp_def, Ideal.hostNegf_def, Ideal.negf_def, Ideal.ofBits_def, Ideal.ofBits_zero_f32,
    zero_add]
  refine congrArg (fun s => Ideal.exp (-s) * x2 (ix2 k (i 1))) (Finset.sum_congr rfl fun d _ => ?_)
  rw [val_main_v14_apply, val_main_v13_apply, val_main_v11_apply, val_main_v12_apply, val_main_v9_apply,
    val_main_v10_apply]
  have e1 : idx_main_v9 (idx_main_v11 (idx_main_v15 (lidx_main_v18 i k) d)) = ix2 (i 0) d :=
    funext fun a => Fin.ext (by match a with | ⟨0, _⟩ => rfl | ⟨1, _⟩ => rfl)
  have e2 : idx_main_v10 (idx_main_v12 (idx_main_v15 (lidx_main_v18 i k) d)) = ix2 k d :=
    funext fun a => Fin.ext (by match a with | ⟨0, _⟩ => rfl | ⟨1, _⟩ => rfl)
  rw [e1, e2]
  simp only [Ideal.hostAbsf_def, Ideal.absf_def, Ideal.subf_def]
  rfl

end Cert.ReferenceIdeal.RefValue

end
-- ==== Proof.Scaled.lean ====
/-
  Both programs scale the points the same way.

  Before its kernel region the kernel's program computes, on the host, the column minima and maxima of the first
  argument and `(x − min) / (max − min)`, operation for operation what the reference computes first. So the scaled
  points the region finds are the reference's scaled points of the same first argument, whatever they are (a zero range
  included: both sides divide by the same number).
-/
import proofs.«164886_j2680059593368_2_alg».proof.Proof.Gen.KernelIdeal.Frame
import proofs.«164886_j2680059593368_2_alg».proof.Proof.Gen.ReferenceIdeal.Read
import Idealize.ShloMosaic.Lib.StableHlo.Run

noncomputable section

namespace Cert.KernelIdeal.Scaled

open Cert.KernelIdeal Cert.KernelIdeal.Gen Idealize.ShloMosaic Idealize.ShloMosaic.TcCoe Idealize.SL.Sem

/-- The scaled points the region finds are the reference's scaled points of the first argument. -/
theorem xs_eq (m : (ℓ : Loc nD τ sig) → Buf (Elt Ideal) ℓ) (c : Dev nD) :
    (V m c main_v8 : S16384x8.Idx → EReal)
      = Cert.ReferenceIdeal.Read.val_main_v8 (F := Ideal) (m ((c : Thread nD τ).loc main_arg0)) := by
  dsimp only [Gen.V, Gen.hostOps0]
  after_results
  rfl

end Cert.KernelIdeal.Scaled

end
-- ==== Proof.lean ====
/-
  The Laplace-kernel features times a matrix: a kernel that tiles the points in sixteen blocks of 1024 rows and, inside a
  block, takes the 1024 design points in four runs of 256, against the plain formula.

  Both programs first scale the points, `xs = (x − min) / (max − min)` per feature, with the same host operations. The
  reference then computes  out (n, j) = ∑ m, exp (−∑ d, |xs (n, d) − dp (m, d)|) · ch (m, j)  with one sum over the eight
  features and one matrix product over the 1024 design points. The kernel adds the eight features' terms one after the
  other, writes `exp (0 − l1)`, multiplies a run of 256 design points by the matching 256 rows of the matrix, and adds
  the four runs' partial products into the output block as it goes. On the extended reals a change of float format is the
  identity, `0 − a = −a`, and addition is commutative and associative, so the four runs added from the left are the sum
  over all design points and the eight terms added from the left are the sum over the features: the two results are the
  same function of the arguments, entry by entry. No finiteness of the inputs is used.

  Modules: Spec (the function and the two regroupings of sums), Terms (the body's arithmetic as named terms), BodyRun
  (what one grid point leaves in the output block), BodyAt (that block entry by entry), Block (the sixteen blocks make
  the whole result), RefValue (the reference's result is the same function), Scaled (both scale the points alike).
-/
import proofs.«164886_j2680059593368_2_alg».proof.Defs
import proofs.«164886_j2680059593368_2_alg».proof.Proof.Gen.Kernel
import proofs.«164886_j2680059593368_2_alg».proof.Proof.Gen.Kernel.Skeleton
import proofs.«164886_j2680059593368_2_alg».proof.Proof.Gen.Kernel.Launch
import proofs.«164886_j2680059593368_2_alg».proof.Proof.Gen.Kernel.Points
import proofs.«164886_j2680059593368_2_alg».proof.Proof.Gen.Kernel.Frame
import proofs.«164886_j2680059593368_2_alg».proof.Proof.Gen.KernelIdeal
import proofs.«164886_j2680059593368_2_alg».proof.Proof.Gen.KernelIdeal.Skeleton
import proofs.«164886_j2680059593368_2_alg».proof.Proof.Gen.KernelIdeal.Launch
import proofs.«164886_j2680059593368_2_alg».proof.Proof.Gen.KernelIdeal.Points
import proofs.«164886_j2680059593368_2_alg».proof.Proof.Gen.KernelIdeal.Frame
import proofs.«164886_j2680059593368_2_alg».proof.Proof.Gen.ReferenceIdeal
import proofs.«164886_j2680059593368_2_alg».proof.Proof.Gen.Pre_finite_inputs
import proofs.«164886_j2680059593368_2_alg».proof.Proof.Gen.KernelIdeal.Value
import proofs.«164886_j2680059593368_2_alg».proof.Proof.Gen.ReferenceIdeal.Run
import proofs.«164886_j2680059593368_2_alg».proof.Proof.Gen.ReferenceIdeal.Read
import proofs.«164886_j2680059593368_2_alg».proof.Proof.Block
import proofs.«164886_j2680059593368_2_alg».proof.Proof.RefValue
import proofs.«164886_j2680059593368_2_alg».proof.Proof.Scaled
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel's result is `laplace` of the scaled points and the other two arguments, and
    so is the reference's: its scaled points are the kernel's. -/
theorem algebraic : Cert.algebraic_KernelIdeal_ReferenceIdeal := by
  intro m ρ m' ρ' _ hagree
  refine ⟨fun c => Cert.LaplaceSpec.laplace (Cert.KernelIdeal.Gen.V m c Cert.KernelIdeal.main_v8)
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2.1,
    (hagree c).2.2]
  exact (congrArg (fun xs => Cert.LaplaceSpec.laplace xs
      (m ((c : Thread Cert.KernelIdeal.nD Cert.KernelIdeal.τ).loc Cert.KernelIdeal.main_arg1))
      (m ((c : Thread Cert.KernelIdeal.nD Cert.KernelIdeal.τ).loc Cert.KernelIdeal.main_arg2)))
    (Cert.KernelIdeal.Scaled.xs_eq m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
